-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000x1 : Shape := ⟨2, ![1600000, 1]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128x16 .f32) (main_arg6 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000x1 .f32) (main_arg3 : FVec F S256x128 .f32) (main_arg4 : FVec F S128 .f32) (main_arg5 : FVec F S128x16 .f32) (main_arg6 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000x1 : Shape := ⟨2, ![1600000, 1]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩

abbrev nBuf : Space → Nat
  | .hbm => 95
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000x1, .f32⟩
  | .hbm, ⟨3, _⟩ => ⟨S256x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1600000, .f32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S100000, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000, .f32⟩
  | .hbm, ⟨56, _⟩ => ⟨S1700000, .f32⟩
  | .hbm, ⟨57, _⟩ => ⟨S100000x128, .f32⟩
  | .hbm, ⟨58, _⟩ => ⟨S1700000x1, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x128, .f32⟩
  | .hbm, ⟨68, _⟩ => ⟨S1700000x128, .f32⟩
  | .hbm, ⟨69, _⟩ => ⟨S1700000x128, .f32⟩
  | .hbm, ⟨70, _⟩ => ⟨S_, .f32⟩
  | .hbm, ⟨71, _⟩ => ⟨S100000x128, .f32⟩
  | .hbm, ⟨72, _⟩ => ⟨S1700000x1, .i32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x16, .f32⟩
  | .hbm, ⟨77, _⟩ => ⟨S1700000x1, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x16, .f32⟩
  | .hbm, ⟨87, _⟩ => ⟨S1700000x16, .f32⟩
  | .hbm, ⟨88, _⟩ => ⟨S1700000x16, .f32⟩
  | .hbm, ⟨89, _⟩ => ⟨S_, .f32⟩
  | .hbm, ⟨90, _⟩ => ⟨S100000x16, .f32⟩
  | .hbm, ⟨91, _⟩ => ⟨S1700000x1, .i32⟩
  | .hbm, ⟨92, _⟩ => ⟨S100000x16, .f32⟩
  | .hbm, ⟨93, _⟩ => ⟨S1x16, .f32⟩
  | .hbm, ⟨94, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000x1_S1600000 : S1600000x1.ShapeCasts S1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S5000x16_S5000x16 : S5000x16.ShapeCasts S5000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x16_S5000x16_1_0_0_1_n_n_wf : DotDims.WF S5000x128 S128x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000x1 : Shape := ⟨2, ![1600000, 1]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 145
  | .vmem => 0
  | .smem => 0
  | _ => 0

abbrev hbmTy0_0 (i : Nat) : BufTy := match i % 128 with
  | 0 => ⟨S100000x256, .f32⟩
  | 1 => ⟨S2x1600000, .i32⟩
  | 2 => ⟨S1600000x1, .f32⟩
  | 3 => ⟨S256x128, .f32⟩
  | 4 => ⟨S128, .f32⟩
  | 5 => ⟨S128x16, .f32⟩
  | 6 => ⟨S16, .f32⟩
  | 7 => ⟨S1x1600000, .i32⟩
  | 8 => ⟨S1600000, .i32⟩
  | 9 => ⟨S1x1600000, .i32⟩
  | 10 => ⟨S1600000, .i32⟩
  | 11 => ⟨S1600000, .f32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .i1⟩
  | 28 => ⟨S_, .f32⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x128, .f32⟩
  | 58 => ⟨S1700000x1, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000, .i32⟩
  | 81 => ⟨S1700000, .i32⟩
  | 82 => ⟨S1700000, .i32⟩
  | 83 => ⟨S_, .f32⟩
  | 84 => ⟨S100000, .f32⟩
  | 85 => ⟨S1700000, .f32⟩
  | 86 => ⟨S_, .f32⟩
  | 87 => ⟨S100000, .f32⟩
  | 88 => ⟨S1700000x1, .i32⟩
  | 89 => ⟨S100000, .f32⟩
  | 90 => ⟨S_, .f32⟩
  | 91 => ⟨S100000, .f32⟩
  | 92 => ⟨S100000, .i1⟩
  | 93 => ⟨S_, .f32⟩
  | 94 => ⟨S100000, .f32⟩
  | 95 => ⟨S100000, .i1⟩
  | 96 => ⟨S_, .f32⟩
  | 97 => ⟨S_, .f32⟩
  | 98 => ⟨S100000, .f32⟩
  | 99 => ⟨S100000, .f32⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000, .f32⟩
  | 124 => ⟨S1700000, .f32⟩
  | 125 => ⟨S100000x16, .f32⟩
  | 126 => ⟨S1700000x1, .f32⟩
  | 127 => ⟨S_, .i32⟩
  | _ => ⟨S100000x256, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000x16, .f32⟩
  | 8 => ⟨S1700000x16, .f32⟩
  | 9 => ⟨S1700000x16, .f32⟩
  | 10 => ⟨S_, .f32⟩
  | 11 => ⟨S100000x16, .f32⟩
  | 12 => ⟨S1700000x1, .i32⟩
  | 13 => ⟨S100000x16, .f32⟩
  | 14 => ⟨S1x16, .f32⟩
  | 15 => ⟨S100000x16, .f32⟩
  | 16 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call2_cst : Ref sig .tc := ⟨.hbm, 77, rfl⟩
abbrev main_call2_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_call3_v0 : Ref sig .tc := ⟨.hbm, 97, rfl⟩
abbrev main_call3_v1 : Ref sig .tc := ⟨.hbm, 98, rfl⟩
abbrev main_v66 : Ref sig .tc := ⟨.hbm, 99, rfl⟩
abbrev main_v67 : Ref sig .tc := ⟨.hbm, 100, rfl⟩
abbrev main_cst_16 : Ref sig .tc := ⟨.hbm, 101, rfl⟩
abbrev main_call4_v0 : Ref sig .tc := ⟨.hbm, 102, rfl⟩
abbrev main_call4_v1 : Ref sig .tc := ⟨.hbm, 103, rfl⟩
abbrev main_v68 : Ref sig .tc := ⟨.hbm, 104, rfl⟩
abbrev main_c_17 : Ref sig .tc := ⟨.hbm, 105, rfl⟩
abbrev main_v69 : Ref sig .tc := ⟨.hbm, 106, rfl⟩
abbrev main_v70 : Ref sig .tc := ⟨.hbm, 107, rfl⟩
abbrev main_c_18 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_19 : Ref sig .tc := ⟨.hbm, 115, rfl⟩
abbrev main_v77 : Ref sig .tc := ⟨.hbm, 116, rfl⟩
abbrev main_v78 : Ref sig .tc := ⟨.hbm, 117, rfl⟩
abbrev main_c_20 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_21 : Ref sig .tc := ⟨.hbm, 127, rfl⟩
abbrev main_v87 : Ref sig .tc := ⟨.hbm, 128, rfl⟩
abbrev main_v88 : Ref sig .tc := ⟨.hbm, 129, rfl⟩
abbrev main_c_22 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000x1_S1600000 : S1600000x1.ShapeCasts S1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run, with every buffer named. @main is eleven segments — five stretches of host operations, the
  first matrix product, one stretch, the bias-and-clamp pass, the second matrix product, one stretch, the last bias pass —
  and each segment takes the buffers from one boundary's contents to the next. So after every weakly fair execution each
  unscoped buffer of the device holds the LAST boundary's contents at that buffer; in particular @main's result does.
-/
import proofs.«102141_j4801773437668_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every device at the
    contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- In particular @main's result, and each argument, which no segment writes. -/
theorem run_result : θ_run defs (onTc (τ := τ) (main (F := F))) ⟨m, fun _ => 0, ρ⟩ (fun r => ∀ c : Dev nD,
      r.2.mem ((c.tc : Thread nD τ).loc main_v67) = W11 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v67 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)
    (run_all m ρ)

end Cert.KernelIdeal.Whole

end
-- ==== Proof.LayerOnePayload.lean ====
/-
  The first linear layer, one block. At a grid point the body multiplies a 5000 × 256 block of rows of `x` by the whole
  256 × 128 weight matrix, both read through a change of float format (the identity on the extended reals), into a zero
  accumulator. Entry (r, c) of the block is therefore the plain sum over k of x(r, k) · w(k, c); the same formula over all
  100000 rows is the whole product the blocks are cut from.
-/
import proofs.«102141_j4801773437668_1_alg».proof.Proof.Gen.KernelIdeal.Skeleton
import Idealize.ShloMosaic.Lib.ValueIdx
import Idealize.ShloMosaic.PureOps.Ideal.Laws

set_option maxRecDepth 16384

noncomputable section

namespace Cert.KernelIdeal.LayerOne

open Cert.KernelIdeal Cert.KernelIdeal.Gen Idealize.ShloMosaic Idealize.ShloMosaic.TcCoe Idealize.SL.Sem

/-- The offsets of a whole-buffer rectangle are zero on both axes. -/
theorem zero2 : (![0, 0] : Fin 2 → Nat) = fun _ => 0 := funext fun a => by fin_cases a <;> rfl

/-- In the whole left operand: the row of result entry `i`, column `k`. -/
abbrev xAt (i : S100000x128.Idx) (k : Fin 256) : S100000x256.Idx := fun a => match a with
  | ⟨0, _⟩ => ⟨(i 0).val, (i 0).isLt⟩
  | ⟨1, _⟩ => ⟨k.val, k.isLt⟩
/-- In the right operand: row `k`, the column of result entry `i`. -/
abbrev wAt (i : S100000x128.Idx) (k : Fin 256) : S256x128.Idx := fun a => match a with
  | ⟨0, _⟩ => ⟨k.val, k.isLt⟩
  | ⟨1, _⟩ => ⟨(i 1).val, (i 1).isLt⟩
/-- In one row block of the left operand: the row of block entry `j`, column `k`. -/
abbrev xBlkAt (j : S5000x128.Idx) (k : Fin 256) : S5000x256.Idx := fun a => match a with
  | ⟨0, _⟩ => ⟨(j 0).val, (j 0).isLt⟩
  | ⟨1, _⟩ => ⟨k.val, k.isLt⟩
/-- In the right operand: row `k`, the column of block entry `j`. -/
abbrev wBlkAt (j : S5000x128.Idx) (k : Fin 256) : S256x128.Idx := fun a => match a with
  | ⟨0, _⟩ => ⟨k.val, k.isLt⟩
  | ⟨1, _⟩ => ⟨(j 1).val, (j 1).isLt⟩

/-- The whole product: entry (r, c) is the sum over k of x(r, k) · w(k, c). -/
def product (x : FVec Ideal S100000x256 .f32) (w : FVec Ideal S256x128 .f32) : FVec Ideal S100000x128 .f32 :=
  fun i => ∑ k : Fin 256, x (xAt i k) * w (wAt i k)

/-- One block's product, entry by entry: the matrix unit's result into a zero accumulator is the plain sum over the
    shared axis, and the two format changes are the identity on the extended reals. -/
theorem blockProduct_apply (xb : FVec Ideal S5000x256 .f32) (wb : FVec Ideal S256x128 .f32) (j : S5000x128.Idx) :
    k0_pay1 (F := Ideal) xb wb j = ∑ k : Fin 256, xb (xBlkAt j k) * wb (wBlkAt j k) := by
  unfold k0_pay1
  simp only [matmul]
  rw [Ideal.matmul_constant_zero_apply]
  simp only [truncf, Ideal.truncf_def]
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = xBlkAt j k := funext fun a => Fin.ext (by
    match a with
    | ⟨0, _⟩ =>
      show (dot_S5000x256_S256x128_S5000x128_1_0_0_1_n_n.lhsIdx j _ 0).val = (j 0).val
      unfold DotDims.lhsIdx
      rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
      rfl
    | ⟨1, _⟩ => exact (dot_S5000x256_S256x128_S5000x128_1_0_0_1_n_n.lhsIdx_val_of_single rfl j _).trans hk)
  have er : dot_S5000x256_S256x128_S5000x128_1_0_0_1_n_n.rhsIdx j ((ValueIdx.contrEquiv1 dot_S5000x256_S256x128_S5000x128_1_0_0_1_n_n 256 rfl rfl).symm k) = wBlkAt j k := funext fun a => Fin.ext (by
    match a with
    | ⟨0, _⟩ => exact (dot_S5000x256_S256x128_S5000x128_1_0_0_1_n_n.rhsIdx_val_of_single rfl j _).trans hk
    | ⟨1, _⟩ =>
      show (dot_S5000x256_S256x128_S5000x128_1_0_0_1_n_n.rhsIdx j _ 1).val = (j 1).val
      unfold DotDims.rhsIdx
      rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
      rfl)
  rw [el, er]

end Cert.KernelIdeal.LayerOne

end
-- ==== Proof.LayerOneBlocks.lean ====
/-
  The first linear layer, from blocks to the array. Grid point `t` stages rows 5000·t … 5000·t + 4999 of the left
  operand and the whole right operand, and writes its 5000 × 128 block of products back to the same rows of the result.
  Each block is the restriction of ONE whole-array product to its rows, and the 20 blocks tile the 100000 rows, so after
  the launch the result array is that product.
-/
import proofs.«102141_j4801773437668_1_alg».proof.Proof.Gen.KernelIdeal.Frame
import proofs.«102141_j4801773437668_1_alg».proof.Proof.LayerOnePayload
import Idealize.ShloMosaic.Lib.Pipeline.Value

set_option maxRecDepth 16384

noncomputable section

namespace Cert.KernelIdeal.LayerOneBlocks

open Cert.KernelIdeal Cert.KernelIdeal.Gen Idealize.ShloMosaic Idealize.ShloMosaic.TcCoe Idealize.SL.Sem
open Idealize.ShloMosaic.Pipeline (Dat)
open Cert.KernelIdeal.LayerOne

variable (V : (c : Dev nD) → (b : Ref sig .tc) → Buf (Elt Ideal) ((c : Thread nD τ).loc b))

/-- Where the blocks sit, decided over the 20 grid points: the row block of the left operand and of the result is the
    grid point itself, and every other block index is zero. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the whole product of the two arrays as the launch finds them. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zero2]
  simp only [View.ld_unit_zero (S := S5000x256) zero2, View.ld_unit_zero (S := S256x128) zero2]
  obtain ⟨e0, e1, e2, e3, e4, e5⟩ := blockIndex t
  funext j
  refine (blockProduct_apply (iblk0 V c 0 t) (iblk0 V c 1 t) j).trans ?_
  show _ = product (V c main_arg0) (V c main_arg3) (((cfg0.win 2).blk t).view.emb j)
  unfold product
  refine Finset.sum_congr rfl fun k _ => ?_
  have hj0 : (j 0).val < 5000 := (j 0).isLt
  have hj1 : (j 1).val < 128 := (j 1).isLt
  have hx : ((cfg0.win 0).blk t).view.emb (xBlkAt j k) = xAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have hw : ((cfg0.win 1).blk t).view.emb (wBlkAt j k) = wAt (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  have h0 : (iblk0 V c 0 t (xBlkAt j k) : Ideal .f32) = (V c main_arg0 (xAt (((cfg0.win 2).blk t).view.emb j) k) : Ideal .f32) := by
    show V c main_arg0 (((cfg0.win 0).blk t).view.emb (xBlkAt j k)) = _
    rw [hx]
  have h1 : (iblk0 V c 1 t (wBlkAt j k) : Ideal .f32) = (V c main_arg3 (wAt (((cfg0.win 2).blk t).view.emb j) k) : Ideal .f32) := by
    show V c main_arg3 (((cfg0.win 1).blk t).view.emb (wBlkAt j k)) = _
    rw [hw]
  exact congrArg₂ (· * ·) h0 h1

/-- An index of the result is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v36).slice (win0_2.rect t)).set ↔ _
  rw [View.set_slice_whole, Rect.mem_set_unit]
  exact Iff.rfl

/-- The 20 row blocks tile the result: row `r` lies in block `r / 5000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := blockIndex t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the result array IS the whole product of the two arrays as the launch found them. -/
theorem final (c : Dev nD) : (dat0 V c).arrAt 2 cfg0.N = product (V c main_arg0) (V c main_arg3) :=
  (dat0 V c).arrAt_eq_of_cover 2 (product (V c main_arg0) (V c main_arg3)) (fun t _ => flushed_eq V c t) covered

end Cert.KernelIdeal.LayerOneBlocks

end
-- ==== Proof.BiasClampBlocks.lean ====
/-
  The first layer's bias and clamp. Grid point `t` stages rows 5000·t … 5000·t + 4999 of the aggregated features and
  the one row of biases, adds the bias of its column to every entry, takes the maximum with zero, and writes the block back
  to the same rows. Every block is the restriction of ONE entry-by-entry pass over the whole array, and the 20 blocks tile
  the 100000 rows, so after the launch the result array is that pass. Nothing here depends on what a float is.
-/
import proofs.«102141_j4801773437668_1_alg».proof.Proof.Gen.KernelIdeal.Frame
import Idealize.ShloMosaic.Lib.Pipeline.Value

set_option maxRecDepth 16384

noncomputable section

namespace Cert.KernelIdeal.BiasClamp

open Cert.KernelIdeal Cert.KernelIdeal.Gen Idealize.ShloMosaic Idealize.ShloMosaic.TcCoe Idealize.SL.Sem
open Idealize.ShloMosaic.Pipeline (Dat)

variable {F : FTy → Type} [FloatOps F]

/-- The offsets of a whole-buffer rectangle are zero on both axes. -/
theorem zero2 : (![0, 0] : Fin 2 → Nat) = fun _ => 0 := funext fun a => by fin_cases a <;> rfl

/-- The bias entry under array entry `i`: the one row, column `i 1`. -/
abbrev biasAt (i : S100000x128.Idx) : S1x128.Idx := fun a => match a with
  | ⟨0, _⟩ => ⟨0, by show 0 < 1; omega⟩
  | ⟨1, _⟩ => ⟨(i 1).val, (i 1).isLt⟩
/-- The bias entry under block entry `j`: the one row, column `j 1`. -/
abbrev biasAtBlk (j : S5000x128.Idx) : S1x128.Idx := fun a => match a with
  | ⟨0, _⟩ => ⟨0, by show 0 < 1; omega⟩
  | ⟨1, _⟩ => ⟨(j 1).val, (j 1).isLt⟩

/-- The whole pass: each entry plus the bias of its column, clamped below at zero. -/
def pass (a : FVec F S100000x128 .f32) (b : FVec F S1x128 .f32) : FVec F S100000x128 .f32 :=
  maximumf (addf a (fun i => b (biasAt i))) (broadcast S100000x128 (Scalar.ofBits .f32 0x00000000#32))

/-- One block of the pass: the body's casts to the same shape are the identity and its row broadcast reads the one
    bias row under each column. -/
theorem blockPass_eq (bb : FVec F S1x128 .f32) (ab : FVec F S5000x128 .f32) :
    k1_pay1 (F := F) bb ab = maximumf (addf ab (fun i => bb (biasAtBlk i))) (broadcast S5000x128 (Scalar.ofBits .f32 0x00000000#32)) := by
  unfold k1_pay1
  simp only [shapeCast_self]
  have hb : broadcastTo S5000x128 bb broadcasts_S1x128_S5000x128 = fun j => bb (biasAtBlk j) := funext fun j =>
    broadcastTo_apply bb broadcasts_S1x128_S5000x128 j (biasAtBlk j) fun ax => by
      match ax with
      | ⟨0, _⟩ => rfl
      | ⟨1, _⟩ => rfl
  rw [hb]

variable (V : (c : Dev nD) → (b : Ref sig .tc) → Buf (Elt F) ((c : Thread nD τ).loc b))

/-- Where the blocks sit, decided over the 20 grid points: the row block of the array and of the result is the grid
    point itself, and every other block index is zero. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of the whole pass over the two arrays as the launch finds them. -/
theorem flushed_eq (c : Dev nD) (t : Fin cfg1.N) :
    (dat1 V c).flushed 2 t = ((cfg1.win 2).blk t).view.read (Elt F) (pass (V c main_v49) (V c main_v50)) := by
  show (cfg1.win 2).cut (grid1.coords t) ((dat1 V c).after 2 t) = _
  rw [after1_2]
  unfold out1_2
  rw [View.canon_unit_zero zero2]
  simp only [View.ld_unit_zero (S := S5000x128) zero2, View.ld_unit_zero (S := S1x128) zero2]
  obtain ⟨e0, e1, e2, e3, e4, e5⟩ := blockIndex t
  rw [blockPass_eq (iblk1 V c 1 t) (iblk1 V c 0 t)]
  funext j
  have hj0 : (j 0).val < 5000 := (j 0).isLt
  have hj1 : (j 1).val < 128 := (j 1).isLt
  have ha : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have hb : ((cfg1.win 1).blk t).view.emb (biasAtBlk j) = biasAt (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  show FloatOps.maximumf (FloatOps.addf (V c main_v49 (((cfg1.win 0).blk t).view.emb j)) (V c main_v50 (((cfg1.win 1).blk t).view.emb (biasAtBlk j)))) (Scalar.ofBits .f32 0x00000000#32)
    = FloatOps.maximumf (FloatOps.addf (V c main_v49 (((cfg1.win 2).blk t).view.emb j)) (V c main_v50 (biasAt (((cfg1.win 2).blk t).view.emb j)))) (Scalar.ofBits .f32 0x00000000#32)
  rw [ha, hb]

/-- An index of the result is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v51).slice (win1_2.rect t)).set ↔ _
  rw [View.set_slice_whole, Rect.mem_set_unit]
  exact Iff.rfl

/-- The 20 row blocks tile the result: row `r` lies in block `r / 5000`. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5⟩ := blockIndex t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the launch the result array IS the whole pass over the two arrays as the launch found them. -/
theorem final (c : Dev nD) : (dat1 V c).arrAt 2 cfg1.N = pass (V c main_v49) (V c main_v50) :=
  (dat1 V c).arrAt_eq_of_cover 2 (pass (V c main_v49) (V c main_v50)) (fun t _ => flushed_eq V c t) covered

end Cert.KernelIdeal.BiasClamp

end
-- ==== Proof.LayerTwoPayload.lean ====
/-
  The second linear layer, one block. At a grid point the body multiplies a 5000 × 128 block of rows of the hidden
  features by the whole 128 × 16 weight matrix, both read through a change of float format (the identity on the extended
  reals; the block also passes a cast to its own shape, the identity), into a zero accumulator. Entry (r, c) of the block is
  therefore the plain sum over k of h(r, k) · w(k, c); the same formula over all 100000 rows is the whole product the blocks
  are cut from.
-/
import proofs.«102141_j4801773437668_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.LayerTwo

open Cert.KernelIdeal Cert.KernelIdeal.Gen Idealize.ShloMosaic Idealize.ShloMosaic.TcCoe Idealize.SL.Sem

/-- The offsets of a whole-buffer rectangle are zero on both axes. -/
theorem zero2 : (![0, 0] : Fin 2 → Nat) = fun _ => 0 := funext fun a => by fin_cases a <;> rfl

/-- In the whole left operand: the row of result entry `i`, column `k`. -/
abbrev xAt (i : S100000x16.Idx) (k : Fin 128) : S100000x128.Idx := fun a => match a with
  | ⟨0, _⟩ => ⟨(i 0).val, (i 0).isLt⟩
  | ⟨1, _⟩ => ⟨k.val, k.isLt⟩
/-- In the right operand: row `k`, the column of result entry `i`. -/
abbrev wAt (i : S100000x16.Idx) (k : Fin 128) : S128x16.Idx := fun a => match a with
  | ⟨0, _⟩ => ⟨k.val, k.isLt⟩
  | ⟨1, _⟩ => ⟨(i 1).val, (i 1).isLt⟩
/-- In one row block of the left operand: the row of block entry `j`, column `k`. -/
abbrev xBlkAt (j : S5000x16.Idx) (k : Fin 128) : S5000x128.Idx := fun a => match a with
  | ⟨0, _⟩ => ⟨(j 0).val, (j 0).isLt⟩
  | ⟨1, _⟩ => ⟨k.val, k.isLt⟩
/-- In the right operand: row `k`, the column of block entry `j`. -/
abbrev wBlkAt (j : S5000x16.Idx) (k : Fin 128) : S128x16.Idx := fun a => match a with
  | ⟨0, _⟩ => ⟨k.val, k.isLt⟩
  | ⟨1, _⟩ => ⟨(j 1).val, (j 1).isLt⟩

/-- The whole product: entry (r, c) is the sum over k of x(r, k) · w(k, c). -/
def product (x : FVec Ideal S100000x128 .f32) (w : FVec Ideal S128x16 .f32) : FVec Ideal S100000x16 .f32 :=
  fun i => ∑ k : Fin 128, x (xAt i k) * w (wAt i k)

/-- One block's product, entry by entry: the matrix unit's result into a zero accumulator is the plain sum over the
    shared axis; the cast to the same shape and the two format changes are the identity. -/
theorem blockProduct_apply (xb : FVec Ideal S5000x128 .f32) (wb : FVec Ideal S128x16 .f32) (j : S5000x16.Idx) :
    k2_pay1 (F := Ideal) xb wb j = ∑ k : Fin 128, xb (xBlkAt j k) * wb (wBlkAt j k) := by
  unfold k2_pay1
  simp only [matmul, shapeCast_self]
  rw [Ideal.matmul_constant_zero_apply]
  simp only [truncf, Ideal.truncf_def]
  rw [← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx j ((ValueIdx.contrEquiv1 dot_S5000x128_S128x16_S5000x16_1_0_0_1_n_n 128 rfl rfl).symm k) = xBlkAt j k := funext fun a => Fin.ext (by
    match a with
    | ⟨0, _⟩ =>
      show (dot_S5000x128_S128x16_S5000x16_1_0_0_1_n_n.lhsIdx j _ 0).val = (j 0).val
      unfold DotDims.lhsIdx
      rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
      rfl
    | ⟨1, _⟩ => exact (dot_S5000x128_S128x16_S5000x16_1_0_0_1_n_n.lhsIdx_val_of_single rfl j _).trans hk)
  have er : dot_S5000x128_S128x16_S5000x16_1_0_0_1_n_n.rhsIdx j ((ValueIdx.contrEquiv1 dot_S5000x128_S128x16_S5000x16_1_0_0_1_n_n 128 rfl rfl).symm k) = wBlkAt j k := funext fun a => Fin.ext (by
    match a with
    | ⟨0, _⟩ => exact (dot_S5000x128_S128x16_S5000x16_1_0_0_1_n_n.rhsIdx_val_of_single rfl j _).trans hk
    | ⟨1, _⟩ =>
      show (dot_S5000x128_S128x16_S5000x16_1_0_0_1_n_n.rhsIdx j _ 1).val = (j 1).val
      unfold DotDims.rhsIdx
      rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
      rfl)
  rw [el, er]

end Cert.KernelIdeal.LayerTwo

end
-- ==== Proof.LayerTwoBlocks.lean ====
/-
  The second linear layer, from blocks to the array. Grid point `t` stages rows 5000·t … 5000·t + 4999 of the hidden
  features and the whole weight matrix, and writes its 5000 × 16 block of products back to the same rows of the result.
  Each block is the restriction of ONE whole-array product to its rows, and the 20 blocks tile the 100000 rows, so after
  the launch the result array is that product.
-/
import proofs.«102141_j4801773437668_1_alg».proof.Proof.Gen.KernelIdeal.Frame
import proofs.«102141_j4801773437668_1_alg».proof.Proof.LayerTwoPayload
import Idealize.ShloMosaic.Lib.Pipeline.Value

set_option maxRecDepth 16384

noncomputable section

namespace Cert.KernelIdeal.LayerTwoBlocks

open Cert.KernelIdeal Cert.KernelIdeal.Gen Idealize.ShloMosaic Idealize.ShloMosaic.TcCoe Idealize.SL.Sem
open Idealize.ShloMosaic.Pipeline (Dat)
open Cert.KernelIdeal.LayerTwo

variable (V : (c : Dev nD) → (b : Ref sig .tc) → Buf (Elt Ideal) ((c : Thread nD τ).loc b))

/-- Where the blocks sit, decided over the 20 grid points: the row block of the left operand and of the result is the
    grid point itself, and every other block index is zero. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the whole product of the two arrays as the launch finds them. -/
theorem flushed_eq (c : Dev nD) (t : Fin cfg2.N) :
    (dat2 V c).flushed 2 t = ((cfg2.win 2).blk t).view.read (Elt Ideal) (product (V c main_v51) (V c main_arg5)) := by
  show (cfg2.win 2).cut (grid2.coords t) ((dat2 V c).after 2 t) = _
  rw [after2_2]
  unfold out2_2
  rw [View.canon_unit_zero zero2]
  simp only [View.ld_unit_zero (S := S5000x128) zero2, View.ld_unit_zero (S := S128x16) zero2]
  obtain ⟨e0, e1, e2, e3, e4, e5⟩ := blockIndex t
  funext j
  refine (blockProduct_apply (iblk2 V c 0 t) (iblk2 V c 1 t) j).trans ?_
  show _ = product (V c main_v51) (V c main_arg5) (((cfg2.win 2).blk t).view.emb j)
  unfold product
  refine Finset.sum_congr rfl fun k _ => ?_
  have hj0 : (j 0).val < 5000 := (j 0).isLt
  have hj1 : (j 1).val < 16 := (j 1).isLt
  have hx : ((cfg2.win 0).blk t).view.emb (xBlkAt j k) = xAt (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : ((cfg2.win 1).blk t).view.emb (wBlkAt j k) = wAt (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 16 + 1 * (j 1).val = win2_2.index t (1 : Fin 2) * 16 + 1 * (j 1).val; omega
  have h0 : (iblk2 V c 0 t (xBlkAt j k) : Ideal .f32) = (V c main_v51 (xAt (((cfg2.win 2).blk t).view.emb j) k) : Ideal .f32) := by
    show V c main_v51 (((cfg2.win 0).blk t).view.emb (xBlkAt j k)) = _
    rw [hx]
  have h1 : (iblk2 V c 1 t (wBlkAt j k) : Ideal .f32) = (V c main_arg5 (wAt (((cfg2.win 2).blk t).view.emb j) k) : Ideal .f32) := by
    show V c main_arg5 (((cfg2.win 1).blk t).view.emb (wBlkAt j k)) = _
    rw [hw]
  exact congrArg₂ (· * ·) h0 h1

/-- An index of the result is in point `t`'s block iff each coordinate is in the block's range on its axis. -/
theorem mem_block (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v52).slice (win2_2.rect t)).set ↔ _
  rw [View.set_slice_whole, Rect.mem_set_unit]
  exact Iff.rfl

/-- The 20 row blocks tile the result: row `r` lies in block `r / 5000`. -/
theorem covered (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 20 := N_2
  let t : Fin cfg2.N := ⟨(i 0).val / 5000, by rw [hN]; omega⟩
  obtain ⟨e0, e1, e2, e3, e4, e5⟩ := blockIndex t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- After the launch the result array IS the whole product of the two arrays as the launch found them. -/
theorem final (c : Dev nD) : (dat2 V c).arrAt 2 cfg2.N = product (V c main_v51) (V c main_arg5) :=
  (dat2 V c).arrAt_eq_of_cover 2 (product (V c main_v51) (V c main_arg5)) (fun t _ => flushed_eq V c t) covered

end Cert.KernelIdeal.LayerTwoBlocks

end
-- ==== Proof.BiasOutBlocks.lean ====
/-
  The second layer's bias. Grid point `t` stages rows 5000·t … 5000·t + 4999 of the aggregated outputs and the one row
  of biases, adds the bias of its column to every entry, and writes the block back to the same rows. Every block is the
  restriction of ONE entry-by-entry pass over the whole array, and the 20 blocks tile the 100000 rows, so after the launch
  the result array is that pass. Nothing here depends on what a float is.
-/
import proofs.«102141_j4801773437668_1_alg».proof.Proof.Gen.KernelIdeal.Frame
import Idealize.ShloMosaic.Lib.Pipeline.Value

set_option maxRecDepth 16384

noncomputable section

namespace Cert.KernelIdeal.BiasOut

open Cert.KernelIdeal Cert.KernelIdeal.Gen Idealize.ShloMosaic Idealize.ShloMosaic.TcCoe Idealize.SL.Sem
open Idealize.ShloMosaic.Pipeline (Dat)

variable {F : FTy → Type} [FloatOps F]

/-- The offsets of a whole-buffer rectangle are zero on both axes. -/
theorem zero2 : (![0, 0] : Fin 2 → Nat) = fun _ => 0 := funext fun a => by fin_cases a <;> rfl

/-- The bias entry under array entry `i`: the one row, column `i 1`. -/
abbrev biasAt (i : S100000x16.Idx) : S1x16.Idx := fun a => match a with
  | ⟨0, _⟩ => ⟨0, by show 0 < 1; omega⟩
  | ⟨1, _⟩ => ⟨(i 1).val, (i 1).isLt⟩
/-- The bias entry under block entry `j`: the one row, column `j 1`. -/
abbrev biasAtBlk (j : S5000x16.Idx) : S1x16.Idx := fun a => match a with
  | ⟨0, _⟩ => ⟨0, by show 0 < 1; omega⟩
  | ⟨1, _⟩ => ⟨(j 1).val, (j 1).isLt⟩

/-- The whole pass: each entry plus the bias of its column. -/
def pass (a : FVec F S100000x16 .f32) (b : FVec F S1x16 .f32) : FVec F S100000x16 .f32 :=
  addf a (fun i => b (biasAt i))

/-- One block of the pass: the body's casts to the same shape are the identity and its row broadcast reads the one
    bias row under each column. -/
theorem blockPass_eq (bb : FVec F S1x16 .f32) (ab : FVec F S5000x16 .f32) :
    k3_pay1 (F := F) bb ab = addf ab (fun i => bb (biasAtBlk i)) := by
  unfold k3_pay1
  simp only [shapeCast_self]
  have hb : broadcastTo S5000x16 bb broadcasts_S1x16_S5000x16 = fun j => bb (biasAtBlk j) := funext fun j =>
    broadcastTo_apply bb broadcasts_S1x16_S5000x16 j (biasAtBlk j) fun ax => by
      match ax with
      | ⟨0, _⟩ => rfl
      | ⟨1, _⟩ => rfl
  rw [hb]

variable (V : (c : Dev nD) → (b : Ref sig .tc) → Buf (Elt F) ((c : Thread nD τ).loc b))

/-- Where the blocks sit, decided over the 20 grid points: the row block of the array and of the result is the grid
    point itself, and every other block index is zero. -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point `t` writes back is block `t` of the whole pass over the two arrays as the launch finds them. -/
theorem flushed_eq (c : Dev nD) (t : Fin cfg3.N) :
    (dat3 V c).flushed 2 t = ((cfg3.win 2).blk t).view.read (Elt F) (pass (V c main_v65) (V c main_v66)) := by
  show (cfg3.win 2).cut (grid3.coords t) ((dat3 V c).after 2 t) = _
  rw [after3_2]
  unfold out3_2
  rw [View.canon_unit_zero zero2]
  simp only [View.ld_unit_zero (S := S5000x16) zero2, View.ld_unit_zero (S := S1x16) zero2]
  obtain ⟨e0, e1, e2, e3, e4, e5⟩ := blockIndex t
  rw [blockPass_eq (iblk3 V c 1 t) (iblk3 V c 0 t)]
  funext j
  have hj0 : (j 0).val < 5000 := (j 0).isLt
  have hj1 : (j 1).val < 16 := (j 1).isLt
  have ha : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 16 + 1 * (j 1).val = win3_2.index t (1 : Fin 2) * 16 + 1 * (j 1).val; omega
  have hb : ((cfg3.win 1).blk t).view.emb (biasAtBlk j) = biasAt (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 16 + 1 * (j 1).val = win3_2.index t (1 : Fin 2) * 16 + 1 * (j 1).val; omega
  show FloatOps.addf (V c main_v65 (((cfg3.win 0).blk t).view.emb j)) (V c main_v66 (((cfg3.win 1).blk t).view.emb (biasAtBlk j)))
    = FloatOps.addf (V c main_v65 (((cfg3.win 2).blk t).view.emb j)) (V c main_v66 (biasAt (((cfg3.win 2).blk t).view.emb j)))
  rw [ha, hb]

/-- An index of the result is in point `t`'s block iff each coordinate is in the block's range on its axis. -/
theorem mem_block (t : Fin cfg3.N) (i : S100000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v67).slice (win3_2.rect t)).set ↔ _
  rw [View.set_slice_whole, Rect.mem_set_unit]
  exact Iff.rfl

/-- The 20 row blocks tile the result: row `r` lies in block `r / 5000`. -/
theorem covered (i : S100000x16.Idx) : ∃ t : Fin cfg3.N, (cfg3.win 2).flush t = true ∧ i ∈ ((cfg3.win 2).blk t).view.set := by
  have hi0 : (i 0).val < 100000 := (i 0).isLt
  have hi1 : (i 1).val < 16 := (i 1).isLt
  have hN : cfg3.N = 20 := N_3
  let t : Fin cfg3.N := ⟨(i 0).val / 5000, by rw [hN]; omega⟩
  obtain ⟨e0, e1, e2, e3, e4, e5⟩ := blockIndex t
  have ht : t.val = (i 0).val / 5000 := rfl
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 16 ≤ (i 1).val ∧ (i 1).val < win3_2.index t (1 : Fin 2) * 16 + 16; omega

/-- After the launch the result array IS the whole pass over the two arrays as the launch found them. -/
theorem final (c : Dev nD) : (dat3 V c).arrAt 2 cfg3.N = pass (V c main_v65) (V c main_v66) :=
  (dat3 V c).arrAt_eq_of_cover 2 (pass (V c main_v65) (V c main_v66)) (fun t _ => flushed_eq V c t) covered

end Cert.KernelIdeal.BiasOut

end
-- ==== Proof.Propagate.lean ====
/-
  One propagation step of the graph convolution, as the host computes it, and the reference read as two of them.
  Given the self-looped source and target endpoints `s`, `d` of the 1700000 edges, their normalised weights `n`, and a
  feature array `h` with one row per node: gather row `s e` of `h` for every edge `e` (a negative endpoint counting from
  the end), scale it by `n e`, and add it into row `d e` of a zero array. The reference applies this step to `x · W1`,
  adds the first bias and clamps at zero, applies the step again to the result times `W2`, and adds the second bias. Before
  the second step it recomputes the endpoints and the weights from the same inputs by the same operations, so they are
  the same arrays.
-/
import proofs.«102141_j4801773437668_1_alg».proof.Proof.Gen.ReferenceIdeal.Read

noncomputable section

namespace Cert.ReferenceIdeal.Graph

open Cert.ReferenceIdeal Cert.ReferenceIdeal.Gen Cert.ReferenceIdeal.Read Idealize.ShloMosaic Idealize.ShloMosaic.TcCoe Idealize.SL.Sem

variable {F : FTy → Type} [FloatOps F]

/-- The step over 128 feature columns. -/
def propagate128 (s d : IVec S1700000 32) (n : FVec F S1700000 .f32) (h : FVec F S100000x128 .f32) : FVec F S100000x128 .f32 :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 d)
    (mulf (broadcastInDim S1700000x128 ![0, 1] bcast_S1700000x1_S1700000x128_0_1 (broadcastInDim S1700000x1 ![0] bcast_S1700000_S1700000x1_0 n))
      (Host.gather gather_S100000x128_S1700000x1_S1700000x128_1_0_n_n_0_1_1128 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s))))

/-- The step over 16 feature columns. -/
def propagate16 (s d : IVec S1700000 32) (n : FVec F S1700000 .f32) (h : FVec F S100000x16 .f32) : FVec F S100000x16 .f32 :=
  Host.scatterAdd scatter_S100000x16_S1700000x1_S1700000x16_1_0_0_1
    (broadcastInDim S100000x16 ![] bcast_S_S100000x16 (constant (F := F) S_ .f32 0x00000000#32))
    (broadcastInDim S1700000x1 ![0] bcast_S1700000_S1700000x1_0 d)
    (mulf (broadcastInDim S1700000x16 ![0, 1] bcast_S1700000x1_S1700000x16_0_1 (broadcastInDim S1700000x1 ![0] bcast_S1700000_S1700000x1_0 n))
      (Host.gather gather_S100000x16_S1700000x1_S1700000x16_1_0_n_n_0_1_116 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s))))

/-- The first aggregation is the step applied to `x · W1`, over the endpoints and weights computed first. -/
theorem firstAggregate (x0 : (⟨S100000x256, .f32⟩ : BufTy).Contents (Elt F)) (x1 : (⟨S2x1600000, .i32⟩ : BufTy).Contents (Elt F)) (x2 : (⟨S1600000x1, .f32⟩ : BufTy).Contents (Elt F)) (x3 : (⟨S256x128, .f32⟩ : BufTy).Contents (Elt F)) :
    val_main_v49 (F := F) x0 x1 x2 x3
      = propagate128 (val_main_v6 (F := F) x1) (val_main_v7 (F := F) x1) (val_main_v35 (F := F) x1 x2) (val_main_v36 (F := F) x0 x3) := rfl

/-- The second aggregation is the step applied to the hidden features times `W2`, over the recomputed endpoints and weights. -/
theorem secondAggregate (x0 : (⟨S100000x256, .f32⟩ : BufTy).Contents (Elt F)) (x1 : (⟨S2x1600000, .i32⟩ : BufTy).Contents (Elt F)) (x2 : (⟨S1600000x1, .f32⟩ : BufTy).Contents (Elt F)) (x3 : (⟨S256x128, .f32⟩ : BufTy).Contents (Elt F)) (x4 : (⟨S128, .f32⟩ : BufTy).Contents (Elt F)) (x5 : (⟨S128x16, .f32⟩ : BufTy).Contents (Elt F)) :
    val_main_v98 (F := F) x0 x1 x2 x3 x4 x5
      = propagate16 (val_main_v55 (F := F) x1) (val_main_v56 (F := F) x1) (val_main_v84 (F := F) x1 x2) (val_main_v85 (F := F) x0 x1 x2 x3 x4 x5) := rfl

/-- The recomputed sources are the sources. -/
theorem sources_again (x1 : (⟨S2x1600000, .i32⟩ : BufTy).Contents (Elt F)) : val_main_v55 (F := F) x1 = val_main_v6 (F := F) x1 := rfl
/-- The recomputed targets are the targets. -/
theorem targets_again (x1 : (⟨S2x1600000, .i32⟩ : BufTy).Contents (Elt F)) : val_main_v56 (F := F) x1 = val_main_v7 (F := F) x1 := rfl
/-- The recomputed weights are the weights: the same operations on the same inputs. -/
theorem weights_again (x1 : (⟨S2x1600000, .i32⟩ : BufTy).Contents (Elt F)) (x2 : (⟨S1600000x1, .f32⟩ : BufTy).Contents (Elt F)) : val_main_v84 (F := F) x1 x2 = val_main_v35 (F := F) x1 x2 := rfl

/-- The reference, read as the two steps around a product, a bias and a clamp, over ONE set of endpoints and weights. -/
theorem reference_eq (x0 : (⟨S100000x256, .f32⟩ : BufTy).Contents (Elt F)) (x1 : (⟨S2x1600000, .i32⟩ : BufTy).Contents (Elt F)) (x2 : (⟨S1600000x1, .f32⟩ : BufTy).Contents (Elt F)) (x3 : (⟨S256x128, .f32⟩ : BufTy).Contents (Elt F)) (x4 : (⟨S128, .f32⟩ : BufTy).Contents (Elt F)) (x5 : (⟨S128x16, .f32⟩ : BufTy).Contents (Elt F)) (x6 : (⟨S16, .f32⟩ : BufTy).Contents (Elt F)) :
    val_main_v101 (F := F) x0 x1 x2 x3 x4 x5 x6
      = addf (propagate16 (val_main_v6 (F := F) x1) (val_main_v7 (F := F) x1) (val_main_v35 (F := F) x1 x2)
          (Host.dotGeneral dot_S100000x128_S128x16_S100000x16_1_0_0_1_n_n none
            (maximumf (addf (propagate128 (val_main_v6 (F := F) x1) (val_main_v7 (F := F) x1) (val_main_v35 (F := F) x1 x2)
                (Host.dotGeneral dot_S100000x256_S256x128_S100000x128_1_0_0_1_n_n none x0 x3)) (val_main_v51 (F := F) x4))
              (val_main_call2_v0 (F := F))) x5))
        (val_main_v100 (F := F) x6) := by
  unfold val_main_v101
  rw [secondAggregate, sources_again, targets_again, weights_again]
  unfold val_main_v85 val_main_v53 val_main_v52
  rw [firstAggregate]
  unfold val_main_v36
  rfl

end Cert.ReferenceIdeal.Graph

end
-- ==== Proof.KernelValue.lean ====
/-
  The idealized kernel's result as ONE function of its arguments, read off the segment boundaries. Walking @main from the
  launch: the host computes the self-looped endpoints and the normalised edge weights (the same operations the reference
  applies, so they are named by the reference's stages); the first launch leaves `x · W1`; the host applies one
  propagation step to it; the second launch adds the first bias and clamps at zero; the third leaves the product with
  `W2`; the host applies the step again; the last launch adds the second bias. A buffer a segment does not write keeps
  its contents across it, which is how the endpoints, the weights and the later arguments reach the segments that read them.
-/
import proofs.«102141_j4801773437668_1_alg».proof.Proof.Gen.KernelIdeal.Frame
import proofs.«102141_j4801773437668_1_alg».proof.Proof.LayerOneBlocks
import proofs.«102141_j4801773437668_1_alg».proof.Proof.BiasClampBlocks
import proofs.«102141_j4801773437668_1_alg».proof.Proof.LayerTwoBlocks
import proofs.«102141_j4801773437668_1_alg».proof.Proof.BiasOutBlocks
import proofs.«102141_j4801773437668_1_alg».proof.Proof.Propagate
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem Idealize.ShloMosaic.StableHlo
open Cert.ReferenceIdeal.Graph (propagate128 propagate16)
open Cert.ReferenceIdeal.Read (val_main_v6 val_main_v7 val_main_v9 val_main_v12 val_main_v14 val_main_v16 val_main_cst_3 val_main_v17 val_main_v18 val_main_cst_4 val_main_v19 val_main_v35)

variable (m : (ℓ : Loc nD τ sig) → Buf (Elt Ideal) ℓ) (ρ : Dev nD → PrngReg) (c : Dev nD)

/-- Open the host stretches in the goal and read each operation's result at its buffer, any other buffer kept. -/
local macro "host_eval" : tactic =>
  `(tactic| (dsimp only [W1, W2, W3, W4, W5, W7, W10]
             simp only [hostOps0, hostOps0_1, hostOps0_2, hostOps0_3, hostOps0_4, hostOps1, hostOps3]
             after_results_simp))

/-! ## Before the first launch: the self-looped endpoints, the degrees, their inverse square roots, the normalised weights

The host's first fifty operations, read one stretch at a time; each stage is the reference's stage of the same name, because
the reference applies the same operation to the same operands. -/

/-! ### The endpoints, the self-looped weights, the degrees and the two positivity masks -/

theorem sources1 : W1 m ρ c (Proc.devRef .tc main_v6) = (val_main_v6 (F := Ideal) (m ((c : Thread nD τ).loc main_arg1))) := by
  show StableHlo.after hostOps0 (W0 m ρ c) (Proc.devRef .tc main_v6) = _
  simp only [hostOps0]
  after_results_simp
  rfl
theorem targets1 : W1 m ρ c (Proc.devRef .tc main_v7) = (val_main_v7 (F := Ideal) (m ((c : Thread nD τ).loc main_arg1))) := by
  show StableHlo.after hostOps0 (W0 m ρ c) (Proc.devRef .tc main_v7) = _
  simp only [hostOps0]
  after_results_simp
  rfl
theorem loopedWeights1 : W1 m ρ c (Proc.devRef .tc main_v9) = (val_main_v9 (F := Ideal) (m ((c : Thread nD τ).loc main_arg2))) := by
  show StableHlo.after hostOps0 (W0 m ρ c) (Proc.devRef .tc main_v9) = _
  simp only [hostOps0]
  after_results_simp
  rfl
theorem degrees1 : W1 m ρ c (Proc.devRef .tc main_v12) = (val_main_v12 (F := Ideal) (m ((c : Thread nD τ).loc main_arg1)) (m ((c : Thread nD τ).loc main_arg2))) := by
  show StableHlo.after hostOps0 (W0 m ρ c) (Proc.devRef .tc main_v12) = _
  simp only [hostOps0]
  after_results_simp
  rfl
theorem positive1 : W1 m ρ c (Proc.devRef .tc main_v14) = (val_main_v14 (F := Ideal) (m ((c : Thread nD τ).loc main_arg1)) (m ((c : Thread nD τ).loc main_arg2))) := by
  show StableHlo.after hostOps0 (W0 m ρ c) (Proc.devRef .tc main_v14) = _
  simp only [hostOps0]
  after_results_simp
  rfl
theorem positive1' : W1 m ρ c (Proc.devRef .tc main_v16) = (val_main_v16 (F := Ideal) (m ((c : Thread nD τ).loc main_arg1)) (m ((c : Thread nD τ).loc main_arg2))) := by
  show StableHlo.after hostOps0 (W0 m ρ c) (Proc.devRef .tc main_v16) = _
  simp only [hostOps0]
  after_results_simp
  rfl
theorem one1 : W1 m ρ c (Proc.devRef .tc main_cst_3) = (val_main_cst_3 (F := Ideal)) := by
  show StableHlo.after hostOps0 (W0 m ρ c) (Proc.devRef .tc main_cst_3) = _
  simp only [hostOps0]
  after_results_simp
  rfl

/-! ### The degree where positive, one elsewhere -/

theorem guarded2 : W2 m ρ c (Proc.devRef .tc main_v17) = (val_main_v17 (F := Ideal) (m ((c : Thread nD τ).loc main_arg1)) (m ((c : Thread nD τ).loc main_arg2))) := by
  have e : W2 m ρ c (Proc.devRef .tc main_v17)
      = select (W1 m ρ c (Proc.devRef .tc main_v16)) (W1 m ρ c (Proc.devRef .tc main_v12)) (broadcastInDim S100000 ![] bcast_S_S100000 (id (W1 m ρ c (Proc.devRef .tc main_cst_3)))) := by
    show StableHlo.after hostOps0_1 (W1 m ρ c) (Proc.devRef .tc main_v17) = _
    generalize W1 m ρ c = V
    simp only [hostOps0_1]
    after_results_simp
    rfl
  rw [e, positive1', degrees1, one1]
  rfl
theorem sources2 : W2 m ρ c (Proc.devRef .tc main_v6) = (val_main_v6 (F := Ideal) (m ((c : Thread nD τ).loc main_arg1))) := by
  have e : W2 m ρ c (Proc.devRef .tc main_v6) = W1 m ρ c (Proc.devRef .tc main_v6) := by
    show StableHlo.after hostOps0_1 (W1 m ρ c) (Proc.devRef .tc main_v6) = _
    generalize W1 m ρ c = V
    simp only [hostOps0_1]
    after_results_simp
  rw [e, sources1]
theorem targets2 : W2 m ρ c (Proc.devRef .tc main_v7) = (val_main_v7 (F := Ideal) (m ((c : Thread nD τ).loc main_arg1))) := by
  have e : W2 m ρ c (Proc.devRef .tc main_v7) = W1 m ρ c (Proc.devRef .tc main_v7) := by
    show StableHlo.after hostOps0_1 (W1 m ρ c) (Proc.devRef .tc main_v7) = _
    generalize W1 m ρ c = V
    simp only [hostOps0_1]
    after_results_simp
  rw [e, targets1]
theorem loopedWeights2 : W2 m ρ c (Proc.devRef .tc main_v9) = (val_main_v9 (F := Ideal) (m ((c : Thread nD τ).loc main_arg2))) := by
  have e : W2 m ρ c (Proc.devRef .tc main_v9) = W1 m ρ c (Proc.devRef .tc main_v9) := by
    show StableHlo.after hostOps0_1 (W1 m ρ c) (Proc.devRef .tc main_v9) = _
    generalize W1 m ρ c = V
    simp only [hostOps0_1]
    after_results_simp
  rw [e, loopedWeights1]
theorem positive2 : W2 m ρ c (Proc.devRef .tc main_v14) = (val_main_v14 (F := Ideal) (m ((c : Thread nD τ).loc main_arg1)) (m ((c : Thread nD τ).loc main_arg2))) := by
  have e : W2 m ρ c (Proc.devRef .tc main_v14) = W1 m ρ c (Proc.devRef .tc main_v14) := by
    show StableHlo.after hostOps0_1 (W1 m ρ c) (Proc.devRef .tc main_v14) = _
    generalize W1 m ρ c = V
    simp only [hostOps0_1]
    after_results_simp
  rw [e, positive1]

/-! ### Its inverse square root, and the zero that replaces it where the degree is not positive -/

theorem rsqrt3 : W3 m ρ c (Proc.devRef .tc main_v18) = (val_main_v18 (F := Ideal) (m ((c : Thread nD τ).loc main_arg1)) (m ((c : Thread nD τ).loc main_arg2))) := by
  show StableHlo.after hostOps0_2 (W2 m ρ c) (Proc.devRef .tc main_v18) = _
  have h0 := guarded2 m ρ c
  generalize W2 m ρ c = V at h0 ⊢
  simp only [hostOps0_2]
  after_results_simp
  rw [h0]
  rfl
theorem zero3 : W3 m ρ c (Proc.devRef .tc main_cst_4) = (val_main_cst_4 (F := Ideal)) := by
  show StableHlo.after hostOps0_2 (W2 m ρ c) (Proc.devRef .tc main_cst_4) = _
  generalize W2 m ρ c = V
  simp only [hostOps0_2]
  after_results_simp
  rfl
theorem sources3 : W3 m ρ c (Proc.devRef .tc main_v6) = (val_main_v6 (F := Ideal) (m ((c : Thread nD τ).loc main_arg1))) := by
  have e : W3 m ρ c (Proc.devRef .tc main_v6) = W2 m ρ c (Proc.devRef .tc main_v6) := by
    show StableHlo.after hostOps0_2 (W2 m ρ c) (Proc.devRef .tc main_v6) = _
    generalize W2 m ρ c = V
    simp only [hostOps0_2]
    after_results_simp
  rw [e, sources2]
theorem targets3 : W3 m ρ c (Proc.devRef .tc main_v7) = (val_main_v7 (F := Ideal) (m ((c : Thread nD τ).loc main_arg1))) := by
  have e : W3 m ρ c (Proc.devRef .tc main_v7) = W2 m ρ c (Proc.devRef .tc main_v7) := by
    show StableHlo.after hostOps0_2 (W2 m ρ c) (Proc.devRef .tc main_v7) = _
    generalize W2 m ρ c = V
    simp only [hostOps0_2]
    after_results_simp
  rw [e, targets2]
theorem loopedWeights3 : W3 m ρ c (Proc.devRef .tc main_v9) = (val_main_v9 (F := Ideal) (m ((c : Thread nD τ).loc main_arg2))) := by
  have e : W3 m ρ c (Proc.devRef .tc main_v9) = W2 m ρ c (Proc.devRef .tc main_v9) := by
    show StableHlo.after hostOps0_2 (W2 m ρ c) (Proc.devRef .tc main_v9) = _
    generalize W2 m ρ c = V
    simp only [hostOps0_2]
    after_results_simp
  rw [e, loopedWeights2]
theorem positive3 : W3 m ρ c (Proc.devRef .tc main_v14) = (val_main_v14 (F := Ideal) (m ((c : Thread nD τ).loc main_arg1)) (m ((c : Thread nD τ).loc main_arg2))) := by
  have e : W3 m ρ c (Proc.devRef .tc main_v14) = W2 m ρ c (Proc.devRef .tc main_v14) := by
    show StableHlo.after hostOps0_2 (W2 m ρ c) (Proc.devRef .tc main_v14) = _
    generalize W2 m ρ c = V
    simp only [hostOps0_2]
    after_results_simp
  rw [e, positive2]

/-! ### The inverse square root of the degree, zero where the degree is not positive -/

theorem invSqrtDegree4 : W4 m ρ c (Proc.devRef .tc main_v19) = (val_main_v19 (F := Ideal) (m ((c : Thread nD τ).loc main_arg1)) (m ((c : Thread nD τ).loc main_arg2))) := by
  have e : W4 m ρ c (Proc.devRef .tc main_v19)
      = select (W3 m ρ c (Proc.devRef .tc main_v14)) (W3 m ρ c (Proc.devRef .tc main_v18)) (broadcastInDim S100000 ![] bcast_S_S100000 (id (W3 m ρ c (Proc.devRef .tc main_cst_4)))) := by
    show StableHlo.after hostOps0_3 (W3 m ρ c) (Proc.devRef .tc main_v19) = _
    generalize W3 m ρ c = V
    simp only [hostOps0_3]
    after_results_simp
    rfl
  rw [e, positive3, rsqrt3, zero3]
  rfl
theorem sources4 : W4 m ρ c (Proc.devRef .tc main_v6) = (val_main_v6 (F := Ideal) (m ((c : Thread nD τ).loc main_arg1))) := by
  have e : W4 m ρ c (Proc.devRef .tc main_v6) = W3 m ρ c (Proc.devRef .tc main_v6) := by
    show StableHlo.after hostOps0_3 (W3 m ρ c) (Proc.devRef .tc main_v6) = _
    generalize W3 m ρ c = V
    simp only [hostOps0_3]
    after_results_simp
  rw [e, sources3]
theorem targets4 : W4 m ρ c (Proc.devRef .tc main_v7) = (val_main_v7 (F := Ideal) (m ((c : Thread nD τ).loc main_arg1))) := by
  have e : W4 m ρ c (Proc.devRef .tc main_v7) = W3 m ρ c (Proc.devRef .tc main_v7) := by
    show StableHlo.after hostOps0_3 (W3 m ρ c) (Proc.devRef .tc main_v7) = _
    generalize W3 m ρ c = V
    simp only [hostOps0_3]
    after_results_simp
  rw [e, targets3]
theorem loopedWeights4 : W4 m ρ c (Proc.devRef .tc main_v9) = (val_main_v9 (F := Ideal) (m ((c : Thread nD τ).loc main_arg2))) := by
  have e : W4 m ρ c (Proc.devRef .tc main_v9) = W3 m ρ c (Proc.devRef .tc main_v9) := by
    show StableHlo.after hostOps0_3 (W3 m ρ c) (Proc.devRef .tc main_v9) = _
    generalize W3 m ρ c = V
    simp only [hostOps0_3]
    after_results_simp
  rw [e, loopedWeights3]

/-! ### The normalised weight of an edge: its weight between the inverse square roots of its endpoints' degrees -/

theorem weights5 : W5 m ρ c (Proc.devRef .tc main_v35) = (val_main_v35 (F := Ideal) (m ((c : Thread nD τ).loc main_arg1)) (m ((c : Thread nD τ).loc main_arg2))) := by
  show StableHlo.after hostOps0_4 (W4 m ρ c) (Proc.devRef .tc main_v35) = _
  have h0 := invSqrtDegree4 m ρ c
  have h1 := sources4 m ρ c
  have h2 := loopedWeights4 m ρ c
  have h3 := targets4 m ρ c
  generalize W4 m ρ c = V at h0 h1 h2 h3 ⊢
  simp only [hostOps0_4]
  after_results_simp
  rw [h0, h1, h2, h3]
  rfl
theorem sources5 : W5 m ρ c (Proc.devRef .tc main_v6) = (val_main_v6 (F := Ideal) (m ((c : Thread nD τ).loc main_arg1))) := by
  have e : W5 m ρ c (Proc.devRef .tc main_v6) = W4 m ρ c (Proc.devRef .tc main_v6) := by
    show StableHlo.after hostOps0_4 (W4 m ρ c) (Proc.devRef .tc main_v6) = _
    generalize W4 m ρ c = V
    simp only [hostOps0_4]
    after_results_simp
  rw [e, sources4]
theorem targets5 : W5 m ρ c (Proc.devRef .tc main_v7) = (val_main_v7 (F := Ideal) (m ((c : Thread nD τ).loc main_arg1))) := by
  have e : W5 m ρ c (Proc.devRef .tc main_v7) = W4 m ρ c (Proc.devRef .tc main_v7) := by
    show StableHlo.after hostOps0_4 (W4 m ρ c) (Proc.devRef .tc main_v7) = _
    generalize W4 m ρ c = V
    simp only [hostOps0_4]
    after_results_simp
  rw [e, targets4]

/-! ### The arguments the launches and the later host operations read: no host operation writes one -/

theorem arg0_5 : W5 m ρ c (Proc.devRef .tc main_arg0) = (m ((c : Thread nD τ).loc main_arg0)) := by
  host_eval
theorem arg3_5 : W5 m ρ c (Proc.devRef .tc main_arg3) = (m ((c : Thread nD τ).loc main_arg3)) := by
  host_eval
theorem arg4_5 : W5 m ρ c (Proc.devRef .tc main_arg4) = (m ((c : Thread nD τ).loc main_arg4)) := by
  host_eval
theorem arg5_5 : W5 m ρ c (Proc.devRef .tc main_arg5) = (m ((c : Thread nD τ).loc main_arg5)) := by
  host_eval
theorem arg6_5 : W5 m ρ c (Proc.devRef .tc main_arg6) = (m ((c : Thread nD τ).loc main_arg6)) := by
  host_eval

/-! ## After the first launch: `x · W1` -/

theorem product6 : W6 m ρ c (Proc.devRef .tc main_v36) = (LayerOne.product (m ((c : Thread nD τ).loc main_arg0)) (m ((c : Thread nD τ).loc main_arg3))) :=
  (W6_arr m ρ c 2).trans ((LayerOneBlocks.final (V5 m ρ) c).trans
    (congrArg₂ LayerOne.product (arg0_5 m ρ c) (arg3_5 m ρ c)))
theorem sources6 : W6 m ρ c (Proc.devRef .tc main_v6) = (val_main_v6 (F := Ideal) (m ((c : Thread nD τ).loc main_arg1))) := (W6_of_ne m ρ c main_v6 (by decide)).trans (sources5 m ρ c)
theorem targets6 : W6 m ρ c (Proc.devRef .tc main_v7) = (val_main_v7 (F := Ideal) (m ((c : Thread nD τ).loc main_arg1))) := (W6_of_ne m ρ c main_v7 (by decide)).trans (targets5 m ρ c)
theorem weights6 : W6 m ρ c (Proc.devRef .tc main_v35) = (val_main_v35 (F := Ideal) (m ((c : Thread nD τ).loc main_arg1)) (m ((c : Thread nD τ).loc main_arg2))) := (W6_of_ne m ρ c main_v35 (by decide)).trans (weights5 m ρ c)
theorem arg4_6 : W6 m ρ c (Proc.devRef .tc main_arg4) = (m ((c : Thread nD τ).loc main_arg4)) := (W6_of_ne m ρ c main_arg4 (by decide)).trans (arg4_5 m ρ c)
theorem arg5_6 : W6 m ρ c (Proc.devRef .tc main_arg5) = (m ((c : Thread nD τ).loc main_arg5)) := (W6_of_ne m ρ c main_arg5 (by decide)).trans (arg5_5 m ρ c)
theorem arg6_6 : W6 m ρ c (Proc.devRef .tc main_arg6) = (m ((c : Thread nD τ).loc main_arg6)) := (W6_of_ne m ρ c main_arg6 (by decide)).trans (arg6_5 m ρ c)

/-! ## The host's first propagation step, and the bias row -/

theorem aggregate7 : W7 m ρ c (Proc.devRef .tc main_v49) = (propagate128 (val_main_v6 (F := Ideal) (m ((c : Thread nD τ).loc main_arg1))) (val_main_v7 (F := Ideal) (m ((c : Thread nD τ).loc main_arg1))) (val_main_v35 (F := Ideal) (m ((c : Thread nD τ).loc main_arg1)) (m ((c : Thread nD τ).loc main_arg2))) (LayerOne.product (m ((c : Thread nD τ).loc main_arg0)) (m ((c : Thread nD τ).loc main_arg3)))) := by
  have e : W7 m ρ c (Proc.devRef .tc main_v49)
      = propagate128 (F := Ideal) (W6 m ρ c (Proc.devRef .tc main_v6)) (W6 m ρ c (Proc.devRef .tc main_v7)) (W6 m ρ c (Proc.devRef .tc main_v35)) (W6 m ρ c (Proc.devRef .tc main_v36)) := by
    host_eval
    rfl
  rw [e, sources6, targets6, weights6, product6]
theorem biasRow7 : W7 m ρ c (Proc.devRef .tc main_v50) = (shapeCast S1x128 (m ((c : Thread nD τ).loc main_arg4)) shapeCasts_S128_S1x128) := by
  have e : W7 m ρ c (Proc.devRef .tc main_v50) = shapeCast S1x128 (W6 m ρ c (Proc.devRef .tc main_arg4)) shapeCasts_S128_S1x128 := by
    host_eval
    rfl
  rw [e, arg4_6]
theorem sources7 : W7 m ρ c (Proc.devRef .tc main_v6) = (val_main_v6 (F := Ideal) (m ((c : Thread nD τ).loc main_arg1))) := by
  have e : W7 m ρ c (Proc.devRef .tc main_v6) = W6 m ρ c (Proc.devRef .tc main_v6) := by host_eval
  rw [e, sources6]
theorem targets7 : W7 m ρ c (Proc.devRef .tc main_v7) = (val_main_v7 (F := Ideal) (m ((c : Thread nD τ).loc main_arg1))) := by
  have e : W7 m ρ c (Proc.devRef .tc main_v7) = W6 m ρ c (Proc.devRef .tc main_v7) := by host_eval
  rw [e, targets6]
theorem weights7 : W7 m ρ c (Proc.devRef .tc main_v35) = (val_main_v35 (F := Ideal) (m ((c : Thread nD τ).loc main_arg1)) (m ((c : Thread nD τ).loc main_arg2))) := by
  have e : W7 m ρ c (Proc.devRef .tc main_v35) = W6 m ρ c (Proc.devRef .tc main_v35) := by host_eval
  rw [e, weights6]
theorem arg5_7 : W7 m ρ c (Proc.devRef .tc main_arg5) = (m ((c : Thread nD τ).loc main_arg5)) := by
  have e : W7 m ρ c (Proc.devRef .tc main_arg5) = W6 m ρ c (Proc.devRef .tc main_arg5) := by host_eval
  rw [e, arg5_6]
theorem arg6_7 : W7 m ρ c (Proc.devRef .tc main_arg6) = (m ((c : Thread nD τ).loc main_arg6)) := by
  have e : W7 m ρ c (Proc.devRef .tc main_arg6) = W6 m ρ c (Proc.devRef .tc main_arg6) := by host_eval
  rw [e, arg6_6]

/-! ## After the second launch: the bias added, clamped at zero -/

theorem hidden8 : W8 m ρ c (Proc.devRef .tc main_v51) = (BiasClamp.pass (F := Ideal) (propagate128 (val_main_v6 (F := Ideal) (m ((c : Thread nD τ).loc main_arg1))) (val_main_v7 (F := Ideal) (m ((c : Thread nD τ).loc main_arg1))) (val_main_v35 (F := Ideal) (m ((c : Thread nD τ).loc main_arg1)) (m ((c : Thread nD τ).loc main_arg2))) (LayerOne.product (m ((c : Thread nD τ).loc main_arg0)) (m ((c : Thread nD τ).loc main_arg3)))) (shapeCast S1x128 (m ((c : Thread nD τ).loc main_arg4)) shapeCasts_S128_S1x128)) :=
  (W8_arr m ρ c 2).trans ((BiasClamp.final (V7 m ρ) c).trans
    (congrArg₂ (BiasClamp.pass (F := Ideal)) (aggregate7 m ρ c) (biasRow7 m ρ c)))
theorem sources8 : W8 m ρ c (Proc.devRef .tc main_v6) = (val_main_v6 (F := Ideal) (m ((c : Thread nD τ).loc main_arg1))) := (W8_of_ne m ρ c main_v6 (by decide)).trans (sources7 m ρ c)
theorem targets8 : W8 m ρ c (Proc.devRef .tc main_v7) = (val_main_v7 (F := Ideal) (m ((c : Thread nD τ).loc main_arg1))) := (W8_of_ne m ρ c main_v7 (by decide)).trans (targets7 m ρ c)
theorem weights8 : W8 m ρ c (Proc.devRef .tc main_v35) = (val_main_v35 (F := Ideal) (m ((c : Thread nD τ).loc main_arg1)) (m ((c : Thread nD τ).loc main_arg2))) := (W8_of_ne m ρ c main_v35 (by decide)).trans (weights7 m ρ c)
theorem arg5_8 : W8 m ρ c (Proc.devRef .tc main_arg5) = (m ((c : Thread nD τ).loc main_arg5)) := (W8_of_ne m ρ c main_arg5 (by decide)).trans (arg5_7 m ρ c)
theorem arg6_8 : W8 m ρ c (Proc.devRef .tc main_arg6) = (m ((c : Thread nD τ).loc main_arg6)) := (W8_of_ne m ρ c main_arg6 (by decide)).trans (arg6_7 m ρ c)

/-! ## After the third launch: the product with `W2` -/

theorem product9 : W9 m ρ c (Proc.devRef .tc main_v52) = (LayerTwo.product (BiasClamp.pass (F := Ideal) (propagate128 (val_main_v6 (F := Ideal) (m ((c : Thread nD τ).loc main_arg1))) (val_main_v7 (F := Ideal) (m ((c : Thread nD τ).loc main_arg1))) (val_main_v35 (F := Ideal) (m ((c : Thread nD τ).loc main_arg1)) (m ((c : Thread nD τ).loc main_arg2))) (LayerOne.product (m ((c : Thread nD τ).loc main_arg0)) (m ((c : Thread nD τ).loc main_arg3)))) (shapeCast S1x128 (m ((c : Thread nD τ).loc main_arg4)) shapeCasts_S128_S1x128)) (m ((c : Thread nD τ).loc main_arg5))) :=
  (W9_arr m ρ c 2).trans ((LayerTwoBlocks.final (V8 m ρ) c).trans
    (congrArg₂ LayerTwo.product (hidden8 m ρ c) (arg5_8 m ρ c)))
theorem sources9 : W9 m ρ c (Proc.devRef .tc main_v6) = (val_main_v6 (F := Ideal) (m ((c : Thread nD τ).loc main_arg1))) := (W9_of_ne m ρ c main_v6 (by decide)).trans (sources8 m ρ c)
theorem targets9 : W9 m ρ c (Proc.devRef .tc main_v7) = (val_main_v7 (F := Ideal) (m ((c : Thread nD τ).loc main_arg1))) := (W9_of_ne m ρ c main_v7 (by decide)).trans (targets8 m ρ c)
theorem weights9 : W9 m ρ c (Proc.devRef .tc main_v35) = (val_main_v35 (F := Ideal) (m ((c : Thread nD τ).loc main_arg1)) (m ((c : Thread nD τ).loc main_arg2))) := (W9_of_ne m ρ c main_v35 (by decide)).trans (weights8 m ρ c)
theorem arg6_9 : W9 m ρ c (Proc.devRef .tc main_arg6) = (m ((c : Thread nD τ).loc main_arg6)) := (W9_of_ne m ρ c main_arg6 (by decide)).trans (arg6_8 m ρ c)

/-! ## The host's second propagation step, and the second bias row -/

theorem aggregate10 : W10 m ρ c (Proc.devRef .tc main_v65) = (propagate16 (val_main_v6 (F := Ideal) (m ((c : Thread nD τ).loc main_arg1))) (val_main_v7 (F := Ideal) (m ((c : Thread nD τ).loc main_arg1))) (val_main_v35 (F := Ideal) (m ((c : Thread nD τ).loc main_arg1)) (m ((c : Thread nD τ).loc main_arg2))) (LayerTwo.product (BiasClamp.pass (F := Ideal) (propagate128 (val_main_v6 (F := Ideal) (m ((c : Thread nD τ).loc main_arg1))) (val_main_v7 (F := Ideal) (m ((c : Thread nD τ).loc main_arg1))) (val_main_v35 (F := Ideal) (m ((c : Thread nD τ).loc main_arg1)) (m ((c : Thread nD τ).loc main_arg2))) (LayerOne.product (m ((c : Thread nD τ).loc main_arg0)) (m ((c : Thread nD τ).loc main_arg3)))) (shapeCast S1x128 (m ((c : Thread nD τ).loc main_arg4)) shapeCasts_S128_S1x128)) (m ((c : Thread nD τ).loc main_arg5)))) := by
  have e : W10 m ρ c (Proc.devRef .tc main_v65)
      = propagate16 (F := Ideal) (W9 m ρ c (Proc.devRef .tc main_v6)) (W9 m ρ c (Proc.devRef .tc main_v7)) (W9 m ρ c (Proc.devRef .tc main_v35)) (W9 m ρ c (Proc.devRef .tc main_v52)) := by
    host_eval
    rfl
  rw [e, sources9, targets9, weights9, product9]
theorem biasRow10 : W10 m ρ c (Proc.devRef .tc main_v66) = (shapeCast S1x16 (m ((c : Thread nD τ).loc main_arg6)) shapeCasts_S16_S1x16) := by
  have e : W10 m ρ c (Proc.devRef .tc main_v66) = shapeCast S1x16 (W9 m ρ c (Proc.devRef .tc main_arg6)) shapeCasts_S16_S1x16 := by
    host_eval
    rfl
  rw [e, arg6_9]

/-! ## After the last launch: @main's result -/

/-- @main's result buffer at the last boundary, as one function of the arguments. -/
theorem result11 : W11 m ρ c (Proc.devRef .tc main_v67) = (BiasOut.pass (F := Ideal) (propagate16 (val_main_v6 (F := Ideal) (m ((c : Thread nD τ).loc main_arg1))) (val_main_v7 (F := Ideal) (m ((c : Thread nD τ).loc main_arg1))) (val_main_v35 (F := Ideal) (m ((c : Thread nD τ).loc main_arg1)) (m ((c : Thread nD τ).loc main_arg2))) (LayerTwo.product (BiasClamp.pass (F := Ideal) (propagate128 (val_main_v6 (F := Ideal) (m ((c : Thread nD τ).loc main_arg1))) (val_main_v7 (F := Ideal) (m ((c : Thread nD τ).loc main_arg1))) (val_main_v35 (F := Ideal) (m ((c : Thread nD τ).loc main_arg1)) (m ((c : Thread nD τ).loc main_arg2))) (LayerOne.product (m ((c : Thread nD τ).loc main_arg0)) (m ((c : Thread nD τ).loc main_arg3)))) (shapeCast S1x128 (m ((c : Thread nD τ).loc main_arg4)) shapeCasts_S128_S1x128)) (m ((c : Thread nD τ).loc main_arg5)))) (shapeCast S1x16 (m ((c : Thread nD τ).loc main_arg6)) shapeCasts_S16_S1x16)) :=
  (W11_arr m ρ c 2).trans ((BiasOut.final (V10 m ρ) c).trans
    (congrArg₂ (BiasOut.pass (F := Ideal)) (aggregate10 m ρ c) (biasRow10 m ρ c)))

end Cert.KernelIdeal.Boundaries

end
-- ==== Proof.SameFunction.lean ====
/-
  The four places where the kernel and the reference spell one computation differently, each an equation between whole
  arrays on the extended reals.
  The two products: the kernel's row-tiled matrix product and the host's `dot_general` are both, entry by entry, the sum
  over the shared axis of the products of the operands' entries.
  The two bias passes: the kernel reshapes the bias vector to one row and reads that row under every column; the host
  broadcasts the vector to one row and the row to every row. Either way entry (r, c) receives bias c. The clamp compares
  with the same zero word on both sides.
-/
import proofs.«102141_j4801773437668_1_alg».proof.Proof.LayerOnePayload
import proofs.«102141_j4801773437668_1_alg».proof.Proof.LayerTwoPayload
import proofs.«102141_j4801773437668_1_alg».proof.Proof.BiasClampBlocks
import proofs.«102141_j4801773437668_1_alg».proof.Proof.BiasOutBlocks
import proofs.«102141_j4801773437668_1_alg».proof.Proof.Gen.ReferenceIdeal.Read
import Idealize.ShloMosaic.Lib.ValueLayout

set_option maxRecDepth 16384

noncomputable section

namespace Cert.Proof.SameFunction

open Idealize.ShloMosaic Idealize.ShloMosaic.TcCoe Idealize.SL.Sem
open Cert.ReferenceIdeal Cert.ReferenceIdeal.Read

/-- The first product: the whole-array sum is the host's `dot_general`. -/
theorem productOne_eq (x : FVec Ideal S100000x256 .f32) (w : FVec Ideal S256x128 .f32) :
    Cert.KernelIdeal.LayerOne.product x w
      = Host.dotGeneral (F := Ideal) dot_S100000x256_S256x128_S100000x128_1_0_0_1_n_n none x w :=
  funext fun i => (val_main_v36_apply x w i).symm

/-- The host's second `dot_general` read at an entry, for ANY left operand: the sum over the 128 shared indices. -/
theorem dotTwo_apply (h : FVec Ideal S100000x128 .f32) (w : FVec Ideal S128x16 .f32) (i : S100000x16.Idx) :
    Host.dotGeneral (F := Ideal) dot_S100000x128_S128x16_S100000x16_1_0_0_1_n_n none h w i
      = ∑ k : Fin 128, h (lidx_main_v85 i k) * w (ridx_main_v85 i k) := by
  simp only [Host.dotGeneral]
  rw [Ideal.dotGeneral_apply, ← Equiv.sum_comp (ValueIdx.contrEquiv1 dot_S100000x128_S128x16_S100000x16_1_0_0_1_n_n 128 rfl rfl).symm]
  refine Finset.sum_congr rfl fun k _ => ?_
  have hk := ValueIdx.contrEquiv1_symm_val dot_S100000x128_S128x16_S100000x16_1_0_0_1_n_n 128 rfl rfl k
  have el : dot_S100000x128_S128x16_S100000x16_1_0_0_1_n_n.lhsIdx i ((ValueIdx.contrEquiv1 dot_S100000x128_S128x16_S100000x16_1_0_0_1_n_n 128 rfl rfl).symm k) = lidx_main_v85 i k := funext fun a => Fin.ext (by
    match a with
    | ⟨0, _⟩ => exact lhs_main_v85_0 _ _
    | ⟨1, _⟩ => exact (lhs_main_v85_1 _ _).trans hk)
  have er : dot_S100000x128_S128x16_S100000x16_1_0_0_1_n_n.rhsIdx i ((ValueIdx.contrEquiv1 dot_S100000x128_S128x16_S100000x16_1_0_0_1_n_n 128 rfl rfl).symm k) = ridx_main_v85 i k := funext fun a => Fin.ext (by
    match a with
    | ⟨0, _⟩ => exact (rhs_main_v85_0 _ _).trans hk
    | ⟨1, _⟩ => exact rhs_main_v85_1 _ _)
  rw [el, er]

/-- The second product: the whole-array sum is the host's `dot_general`. -/
theorem productTwo_eq (h : FVec Ideal S100000x128 .f32) (w : FVec Ideal S128x16 .f32) :
    Cert.KernelIdeal.LayerTwo.product h w
      = Host.dotGeneral (F := Ideal) dot_S100000x128_S128x16_S100000x16_1_0_0_1_n_n none h w :=
  funext fun i => (dotTwo_apply h w i).symm

/-- The reshaped bias row read under entry `i` of a 100000 × 128 array is bias `i 1`, and so is the host's double broadcast. -/
theorem biasOne_apply (b : FVec Ideal S128 .f32) (i : S100000x128.Idx) :
    shapeCast Cert.KernelIdeal.S1x128 b Cert.KernelIdeal.Gen.shapeCasts_S128_S1x128 (Cert.KernelIdeal.BiasClamp.biasAt i)
      = val_main_v51 (F := Ideal) b i := by
  rw [val_main_v51_apply, val_main_v50_apply]
  refine shapeCast_apply b _ _ _ ?_
  rw [Shape.rowMajor_val_two, Shape.rowMajor_val_one]
  show (i 1).val = 0 * 128 + (i 1).val
  omega

/-- The same for the 100000 × 16 array and the second bias. -/
theorem biasTwo_apply (b : FVec Ideal S16 .f32) (i : S100000x16.Idx) :
    shapeCast Cert.KernelIdeal.S1x16 b Cert.KernelIdeal.Gen.shapeCasts_S16_S1x16 (Cert.KernelIdeal.BiasOut.biasAt i)
      = val_main_v100 (F := Ideal) b i := by
  rw [val_main_v100_apply, val_main_v99_apply]
  refine shapeCast_apply b _ _ _ ?_
  rw [Shape.rowMajor_val_two, Shape.rowMajor_val_one]
  show (i 1).val = 0 * 16 + (i 1).val
  omega

/-- The first bias pass with its clamp: the kernel's entry-by-entry pass over the reshaped bias row is the host's sum with
    the broadcast bias followed by the maximum with the broadcast zero. -/
theorem clampPass_eq (a : FVec Ideal S100000x128 .f32) (b : FVec Ideal S128 .f32) :
    Cert.KernelIdeal.BiasClamp.pass (F := Ideal) a (shapeCast Cert.KernelIdeal.S1x128 b Cert.KernelIdeal.Gen.shapeCasts_S128_S1x128)
      = maximumf (addf a (val_main_v51 (F := Ideal) b)) (val_main_call2_v0 (F := Ideal)) := by
  funext i
  show FloatOps.maximumf (FloatOps.addf (a i) (shapeCast Cert.KernelIdeal.S1x128 b Cert.KernelIdeal.Gen.shapeCasts_S128_S1x128 (Cert.KernelIdeal.BiasClamp.biasAt i))) (Scalar.ofBits .f32 0x00000000#32)
    = FloatOps.maximumf (FloatOps.addf (a i) (val_main_v51 (F := Ideal) b i)) (val_main_call2_v0 (F := Ideal) i)
  rw [biasOne_apply, val_main_call2_v0_apply, val_main_call2_cst_apply]

/-- The second bias pass: the kernel's entry-by-entry pass over the reshaped bias row is the host's sum with the broadcast bias. -/
theorem biasPass_eq (a : FVec Ideal S100000x16 .f32) (b : FVec Ideal S16 .f32) :
    Cert.KernelIdeal.BiasOut.pass (F := Ideal) a (shapeCast Cert.KernelIdeal.S1x16 b Cert.KernelIdeal.Gen.shapeCasts_S16_S1x16)
      = addf a (val_main_v100 (F := Ideal) b) := by
  funext i
  show FloatOps.addf (a i) (shapeCast Cert.KernelIdeal.S1x16 b Cert.KernelIdeal.Gen.shapeCasts_S16_S1x16 (Cert.KernelIdeal.BiasOut.biasAt i))
    = FloatOps.addf (a i) (val_main_v100 (F := Ideal) b i)
  rw [biasTwo_apply]

end Cert.Proof.SameFunction

end
-- ==== Proof.lean ====
/-
  A two-layer graph convolution: each layer multiplies the node features by a weight matrix, sends every node's row along
  its edges scaled by the symmetrically normalised edge weight (self-loops added), sums what arrives at each node, and adds
  a bias; the first layer is clamped below at zero.
  The kernel computes the two matrix products and the two bias passes in four launches over 20 row blocks each and leaves
  the gather, the scaling and the scatter-add to the host; the reference does everything on the host and recomputes the
  normalised weights for the second layer. On the extended reals the two are one function of the seven arguments:
    • a row-tiled product into a zero accumulator, read through a change of float format, is the whole product as a sum
      over the shared axis, which is what the host's `dot_general` is;
    • a bias vector reshaped to one row and read under every column is the vector broadcast to every row;
    • recomputing a value from the same inputs by the same operations gives the same value;
    • the host operations the two programs share are applied to equal operands.
  None of these uses that the inputs are finite: no sum is regrouped across a product, so the precondition is never opened.
  Each program terminates, faults nowhere and leaves its arguments as they were; for the reference this is its run with the
  result dropped. The idealized kernel is the kernel's own text read on the extended reals — no operation was rewritten — so
  the conjunct about the idealization is `True`.
-/
import proofs.«102141_j4801773437668_1_alg».proof.Defs
import proofs.«102141_j4801773437668_1_alg».proof.Proof.Gen.Kernel
import proofs.«102141_j4801773437668_1_alg».proof.Proof.Gen.Kernel.Skeleton
import proofs.«102141_j4801773437668_1_alg».proof.Proof.Gen.Kernel.Launch
import proofs.«102141_j4801773437668_1_alg».proof.Proof.Gen.Kernel.Points
import proofs.«102141_j4801773437668_1_alg».proof.Proof.Gen.Kernel.Frame
import proofs.«102141_j4801773437668_1_alg».proof.Proof.Gen.KernelIdeal
import proofs.«102141_j4801773437668_1_alg».proof.Proof.Gen.KernelIdeal.Skeleton
import proofs.«102141_j4801773437668_1_alg».proof.Proof.Gen.KernelIdeal.Launch
import proofs.«102141_j4801773437668_1_alg».proof.Proof.Gen.KernelIdeal.Points
import proofs.«102141_j4801773437668_1_alg».proof.Proof.Gen.KernelIdeal.Frame
import proofs.«102141_j4801773437668_1_alg».proof.Proof.Gen.ReferenceIdeal
import proofs.«102141_j4801773437668_1_alg».proof.Proof.Gen.ReferenceIdeal.Run
import proofs.«102141_j4801773437668_1_alg».proof.Proof.Gen.ReferenceIdeal.Read
import proofs.«102141_j4801773437668_1_alg».proof.Proof.Gen.Pre_finite_inputs
import proofs.«102141_j4801773437668_1_alg».proof.Proof.KernelRun
import proofs.«102141_j4801773437668_1_alg».proof.Proof.KernelValue
import proofs.«102141_j4801773437668_1_alg».proof.Proof.Propagate
import proofs.«102141_j4801773437668_1_alg».proof.Proof.SameFunction
import Idealize.ShloMosaic.Adequacy
import Idealize.ShloMosaic.Init

noncomputable section

namespace Cert.Proof

open Idealize.ShloMosaic Idealize.ShloMosaic.TcCoe Idealize.SL.Sem
open Cert.ReferenceIdeal.Graph (propagate128 propagate16)
open Cert.ReferenceIdeal.Read (val_main_v6 val_main_v7 val_main_v35 val_main_v101)

/-- The kernel's result and the reference's are one function of the arguments: rewrite the reference as two propagation
    steps over one set of endpoints and weights, then the kernel's two bias passes and two products into the host's. -/
theorem oneFunction (x0 : FVec Ideal Cert.KernelIdeal.S100000x256 .f32) (x1 : IVec Cert.KernelIdeal.S2x1600000 32)
    (x2 : FVec Ideal Cert.KernelIdeal.S1600000x1 .f32) (x3 : FVec Ideal Cert.KernelIdeal.S256x128 .f32)
    (x4 : FVec Ideal Cert.KernelIdeal.S128 .f32) (x5 : FVec Ideal Cert.KernelIdeal.S128x16 .f32) (x6 : FVec Ideal Cert.KernelIdeal.S16 .f32) :
    Cert.KernelIdeal.BiasOut.pass (F := Ideal)
      (propagate16 (val_main_v6 (F := Ideal) x1) (val_main_v7 (F := Ideal) x1) (val_main_v35 (F := Ideal) x1 x2)
        (Cert.KernelIdeal.LayerTwo.product
          (Cert.KernelIdeal.BiasClamp.pass (F := Ideal)
            (propagate128 (val_main_v6 (F := Ideal) x1) (val_main_v7 (F := Ideal) x1) (val_main_v35 (F := Ideal) x1 x2) (Cert.KernelIdeal.LayerOne.product x0 x3))
            (shapeCast Cert.KernelIdeal.S1x128 x4 Cert.KernelIdeal.Gen.shapeCasts_S128_S1x128))
          x5))
      (shapeCast Cert.KernelIdeal.S1x16 x6 Cert.KernelIdeal.Gen.shapeCasts_S16_S1x16)
      = val_main_v101 (F := Ideal) x0 x1 x2 x3 x4 x5 x6 := by
  rw [Cert.ReferenceIdeal.Graph.reference_eq, SameFunction.biasPass_eq, SameFunction.productTwo_eq, SameFunction.clampPass_eq,
    SameFunction.productOne_eq]

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs run, and the reference's result is the kernel's: the kernel's result buffer ends at the last
    boundary's contents, which is the network's function of the kernel's arguments; the reference's ends at its last
    stage of ITS arguments, which agree with the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W11 m ρ c (Proc.devRef .tc Cert.KernelIdeal.main_v67), Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v101_eq, (hagree c).1, (hagree c).2.1, (hagree c).2.2.1, (hagree c).2.2.2.1,
    (hagree c).2.2.2.2.1, (hagree c).2.2.2.2.2.1, (hagree c).2.2.2.2.2.2]
  exact ((Cert.KernelIdeal.Boundaries.result11 m ρ c).trans (oneFunction _ _ _ _ _ _ _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
